-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x4096 : Shape := ⟨2, ![2048, 4096]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048x4096 .f32) (main_arg8 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  main_v43

def fn_part1 {F : FTy → Type} [FloatOps F] (main_arg4 : FVec F S2048 .f32) (main_arg5 : FVec F S2048x4096 .f32) (main_arg6 : FVec F S2048 .f32) (main_arg7 : FVec F S2048x4096 .f32) (main_arg8 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_v33

def fn {F : FTy → Type} [FloatOps F] (main_arg0 : FVec F S8192x2048 .f32) (main_arg1 : FVec F S8192x2048 .f32) (main_arg2 : FVec F S8192x2048 .f32) (main_arg3 : FVec F S2048x4096 .f32) (main_arg4 : FVec F S2048 .f32) (main_arg5 : FVec F S2048x4096 .f32) (main_arg6 : FVec F S2048 .f32) (main_arg7 : FVec F S2048x4096 .f32) (main_arg8 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_v13 main_v16
-- ==== Kernel.lean ====
abbrev S8192x2048 : Shape := ⟨2, ![8192, 2048]⟩
abbrev S2048x4096 : Shape := ⟨2, ![2048, 4096]⟩
abbrev S2048 : Shape := ⟨1, ![2048]⟩
abbrev S8192x4096 : Shape := ⟨2, ![8192, 4096]⟩
abbrev S1x2048 : Shape := ⟨2, ![1, 2048]⟩
abbrev S1024x4096 : Shape := ⟨2, ![1024, 4096]⟩
abbrev S128x4096 : Shape := ⟨2, ![128, 4096]⟩
abbrev S1x128 : Shape := ⟨2, ![1, 128]⟩
abbrev S1024x128 : Shape := ⟨2, ![1024, 128]⟩

abbrev nBuf : Space → Nat
  | .hbm => 20
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S8192x2048, .bf16⟩
  | .hbm, ⟨10, _⟩ => ⟨S8192x2048, .bf16⟩
  | .hbm, ⟨11, _⟩ => ⟨S8192x4096, .bf16⟩
  | .hbm, ⟨12, _⟩ => ⟨S2048x4096, .bf16⟩
  | .hbm, ⟨13, _⟩ => ⟨S2048x4096, .bf16⟩
  | .hbm, ⟨14, _⟩ => ⟨S2048x4096, .bf16⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S8192x2048, .f32⟩
  | .hbm, ⟨19, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S128x4096, .bf16⟩
  | .local _ .vmem, ⟨3, _⟩ => ⟨S128x4096, .bf16⟩
  | .local _ .vmem, ⟨4, _⟩ => ⟨S128x4096, .bf16⟩
  | .local _ .vmem, ⟨5, _⟩ => ⟨S128x4096, .bf16⟩
  | .local _ .vmem, ⟨6, _⟩ => ⟨S128x4096, .bf16⟩
  | .local _ .vmem, ⟨7, _⟩ => ⟨S128x4096, .bf16⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  bitsLt_bf16_f32 : FTy.bits .bf16 < FTy.bits .f32
  concatenates_S8192x2048_S8192x2048_S8192x4096_d1 : Shape.Concatenates [S8192x2048, S8192x2048] S8192x4096 1
  shapeCasts_S2048_S1x2048 : S2048.ShapeCasts S1x2048
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  dot_S1024x4096_S128x4096_S1024x128_1_1_0_0_n_n_wf : DotDims.WF S1024x4096 S128x4096 S1024x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S2048x4096.size a
  hwx0_1 : ∀ i : grid0.Coords, EltTy.bits .bf16 = 32 ∨ (Rect.block (s := S2048x4096) S128x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S2048x4096.size a
  hwx0_2 : ∀ i : grid0.Coords, EltTy.bits .bf16 = 32 ∨ (Rect.block (s := S2048x4096) S128x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S2048x4096.size a
  hwx0_3 : ∀ i : grid0.Coords, EltTy.bits .bf16 = 32 ∨ (Rect.block (s := S2048x4096) S128x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x2048.size a
  hwx0_4 : ∀ i : grid0.Coords, EltTy.bits .f32 = 32 ∨ (Rect.block (s := S1x2048) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x2048.size a
  hwx0_5 : ∀ i : grid0.Coords, EltTy.bits .f32 = 32 ∨ (Rect.block (s := S1x2048) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x2048.size a
  hwx0_6 : ∀ i : grid0.Coords, EltTy.bits .f32 = 32 ∨ (Rect.block (s := S1x2048) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S8192x2048.size a
  hwx0_7 : ∀ i : grid0.Coords, EltTy.bits .f32 = 32 ∨ (Rect.block (s := S8192x2048) S1024x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S8192x2048.size a
  hwx0_8 : ∀ i : grid0.Coords, EltTy.bits .f32 = 32 ∨ (Rect.block (s := S8192x2048) S1024x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x128.size a ≤ S8192x2048.size a
  hwx0_9 : ∀ i : grid0.Coords, EltTy.bits .f32 = 32 ∨ (Rect.block (s := S8192x2048) S1024x128.size (cc0_transform_9 i) (hinb0_9 i)).WholeWords (EltTy.packing .f32)

variable [Facts₀]

def dot_S1024x4096_S128x4096_S1024x128_1_1_0_0_n_n : DotDims S1024x4096 S128x4096 S1024x128 where
  lhsContracting := [1]
  rhsContracting := [1]
  lhsNonContracting := [0]
  rhsNonContracting := [0]
  lhsBatch := []
  rhsBatch := []
  wf := dot_S1024x4096_S128x4096_S1024x128_1_1_0_0_n_n_wf

abbrev win0_0 : Pipeline.Window sig grid0 :=
  Pipeline.Window.ofSpec (Memref.whole main_v2) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg2) S1024x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_0) S1024x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9_1) S1024x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x4096 : Shape := ⟨2, ![2048, 4096]⟩
abbrev S2048 : Shape := ⟨1, ![2048]⟩
abbrev S8192x4096 : Shape := ⟨2, ![8192, 4096]⟩
abbrev S6144x4096 : Shape := ⟨2, ![6144, 4096]⟩
abbrev S6144 : Shape := ⟨1, ![6144]⟩
abbrev S4096x6144 : Shape := ⟨2, ![4096, 6144]⟩
abbrev S8192x6144 : Shape := ⟨2, ![8192, 6144]⟩
abbrev S1x6144 : Shape := ⟨2, ![1, 6144]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S8192x4096, .f32⟩
  | .hbm, ⟨10, _⟩ => ⟨S6144x4096, .f32⟩
  | .hbm, ⟨11, _⟩ => ⟨S6144, .f32⟩
  | .hbm, ⟨12, _⟩ => ⟨S4096x6144, .f32⟩
  | .hbm, ⟨13, _⟩ => ⟨S8192x6144, .f32⟩
  | .hbm, ⟨14, _⟩ => ⟨S1x6144, .f32⟩
  | .hbm, ⟨15, _⟩ => ⟨S8192x6144, .f32⟩
  | .hbm, ⟨16, _⟩ => ⟨S8192x6144, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  concatenates_S8192x2048_S8192x2048_S8192x4096_d1 : Shape.Concatenates [S8192x2048, S8192x2048] S8192x4096 1
  concatenates_S2048x4096_S2048x4096_S2048x4096_S6144x4096_d0 : Shape.Concatenates [S2048x4096, S2048x4096, S2048x4096] S6144x4096 0
  concatenates_S2048_S2048_S2048_S6144_d0 : Shape.Concatenates [S2048, S2048, S2048] S6144 0
  transposes_S6144x4096_S4096x6144_1_0 : S6144x4096.Transposes [1, 0] S4096x6144
  bcast_S6144_S1x6144_1 : S6144.BroadcastsInDim S1x6144 (![1] : Fin 1 → Fin S1x6144.rank)
  bcast_S1x6144_S8192x6144_0_1 : S1x6144.BroadcastsInDim S8192x6144 (![0, 1] : Fin 2 → Fin S8192x6144.rank)
  slices_S8192x6144_S8192x2048_0_0 : S8192x6144.Slices ![0, 0] S8192x2048
  slices_S8192x6144_S8192x2048_0_2048 : S8192x6144.Slices ![0, 2048] S8192x2048
  slices_S8192x6144_S8192x2048_0_4096 : S8192x6144.Slices ![0, 4096] S8192x2048
  bcast_S_S8192x2048 : S_.BroadcastsInDim S8192x2048 (![] : Fin 0 → Fin S8192x2048.rank)
  dot_S8192x4096_S4096x6144_S8192x6144_1_0_0_1_n_n_wf : DotDims.WF S8192x4096 S4096x6144 S8192x6144 [1] [0] [0] [1] [] []

variable [Facts₀]

def dot_S8192x4096_S4096x6144_S8192x6144_1_0_0_1_n_n : DotDims S8192x4096 S4096x6144 S8192x6144 where
  lhsContracting := [1]
  rhsContracting := [0]
  lhsNonContracting := [0]
  rhsNonContracting := [1]
  lhsBatch := []
  rhsBatch := []
  wf := dot_S8192x4096_S4096x6144_S8192x6144_1_0_0_1_n_n_wf

class Facts : Prop extends Facts₀ where

variable [Facts]
-- ==== Proof.LibMatmulRowsByRows.lean ====
/-
  A matrix product whose two operands are both contracted over their LAST axis, read at an entry.

  A kernel that keeps a weight matrix in its natural [outputs, inputs] layout multiplies an [n, K] block by a
  [d, K] block "row against row": out[r, c] = Σ_k lhs[r, k] · rhs[c, k].  Into the zero accumulator, at the exact
  instance, that sum is all there is.
-/
import Idealize.ShloMosaic.PureOps.Ideal.Laws
import Idealize.ShloMosaic.Lib.ValueIdx

noncomputable section

namespace Cert.Lib.MatmulRowsByRows

open Idealize.ShloMosaic Idealize.ShloMosaic.ValueIdx

/-- A matrix product of an [n, K] operand with a [d, K] operand, both contracted over their last axis, into the
    zero accumulator, read at entry (r, c): the sum over the contracted axis of row r of the left operand times
    row c of the right.  The four hypotheses name the coordinates of the operands' indices at an output index and
    a contraction index (for a printed dimension record: two by unfolding the index maps on the free axes, two
    by the library's lhsIdx_val_of_single / rhsIdx_val_of_single on the contracted ones). -/
theorem matmul_zero_at {n K d : Nat} {φ₁ φ₂ : FTy}
    (D : DotDims ⟨2, ![n, K]⟩ ⟨2, ![d, K]⟩ ⟨2, ![n, d]⟩)
    (hr : D.contr.rank = 1) (hs : D.contr.size ⟨0, by omega⟩ = K)
    (hl0 : ∀ j q, (D.lhsIdx j q 0).val = (j 0).val)
    (hl1 : ∀ j q, (D.lhsIdx j q 1).val = (q ⟨0, by omega⟩).val)
    (hr0 : ∀ j q, (D.rhsIdx j q 0).val = (j 1).val)
    (hr1 : ∀ j q, (D.rhsIdx j q 1).val = (q ⟨0, by omega⟩).val)
    (prec : Option ContractPrecision)
    (lhs : FVec Ideal ⟨2, ![n, K]⟩ φ₁) (rhs : FVec Ideal ⟨2, ![d, K]⟩ φ₂) (r : Fin n) (c : Fin d) :
    FloatOps.matmul D prec lhs rhs (constant (F := Ideal) ⟨2, ![n, d]⟩ .f32 0x00000000#32) (ix2 r c)
      = ∑ k : Fin K, lhs (ix2 r k) * rhs (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 c k := funext fun a => Fin.ext (by
    match a with
    | ⟨0, _⟩ => exact hr0 _ _
    | ⟨1, _⟩ => exact (hr1 _ _).trans hk)
  rw [el, er]

end Cert.Lib.MatmulRowsByRows

end
-- ==== Proof.CellLaw.lean ====
/-
  The coupled-gate LSTM cell as one function of its operands, entry by entry, on the extended reals.

  With xh the [8192, 4096] row-joined activations, a weight matrix w of shape [2048, 4096] kept in its
  [outputs, inputs] layout and a bias b of length 2048, a gate's pre-activation at (r, c) is
      gate xh w b r c = (sum over k of xh[r, k] * w[c, k]) + b[c].
  The new cell state and the new hidden state at (r, c) are
      c' = sigma(f) * c_prev + (1 - sigma(f)) * tanh(g),      h' = sigma(o) * tanh(c'),
  with f, o, g the forget, output and candidate pre-activations and sigma the logistic function.
  The constant 1 is kept as the word both programs spell (0x3F800000), never evaluated.
-/
import Idealize.ShloMosaic.PureOps.Ideal
import Idealize.ShloMosaic.Lib.ValueIdx

noncomputable section

namespace Cert.Lstm

open Idealize.ShloMosaic Idealize.ShloMosaic.ValueIdx

/-- The word of the float 1.0, read on the extended reals. -/
def one : EReal := Ideal.ofBits .f32 0x3F800000#32

/-- One gate's pre-activation at row r, column c: row r of the joined activations against row c of the weights,
    plus the bias at c. -/
def gate (xh : (⟨2, ![8192, 4096]⟩ : Shape).Idx → EReal) (w : (⟨2, ![2048, 4096]⟩ : Shape).Idx → EReal)
    (b : (⟨1, ![2048]⟩ : Shape).Idx → EReal) (r : Fin 8192) (c : Fin 2048) : EReal :=
  (∑ k : Fin 4096, xh (ix2 r k) * w (ix2 c k)) + b (ix1 c)

/-- The new cell state from the forget and candidate pre-activations and the previous cell state. -/
def cellNew (f g cp : EReal) : EReal :=
  Ideal.logistic f * cp + (one - Ideal.logistic f) * Ideal.tanh g

/-- The new hidden state from the output pre-activation and the new cell state. -/
def hidden (o cn : EReal) : EReal := Ideal.logistic o * Ideal.tanh cn

/-- The new cell state as an array. -/
def cellArr (xh : (⟨2, ![8192, 4096]⟩ : Shape).Idx → EReal)
    (wf wc : (⟨2, ![2048, 4096]⟩ : Shape).Idx → EReal) (bf bc : (⟨1, ![2048]⟩ : Shape).Idx → EReal)
    (cp : (⟨2, ![8192, 2048]⟩ : Shape).Idx → EReal) : (⟨2, ![8192, 2048]⟩ : Shape).Idx → EReal :=
  fun i => cellNew (gate xh wf bf (i 0) (i 1)) (gate xh wc bc (i 0) (i 1)) (cp i)

/-- The new hidden state as an array. -/
def hiddenArr (xh : (⟨2, ![8192, 4096]⟩ : Shape).Idx → EReal)
    (wf wo wc : (⟨2, ![2048, 4096]⟩ : Shape).Idx → EReal) (bf bo bc : (⟨1, ![2048]⟩ : Shape).Idx → EReal)
    (cp : (⟨2, ![8192, 2048]⟩ : Shape).Idx → EReal) : (⟨2, ![8192, 2048]⟩ : Shape).Idx → EReal :=
  fun i => hidden (gate xh wo bo (i 0) (i 1)) (cellArr xh wf wc bf bc cp i)

end Cert.Lstm

end
-- ==== Proof.BodyAtEntry.lean ====
/-
  What the kernel body stores, read at one entry of a [1024, 128] block.

  The body multiplies the [1024, 4096] activation block by three [128, 4096] weight blocks, each "row against
  row" (both operands contracted over their last axis), adds the [1, 128] bias rows broadcast over the 1024
  rows, and applies the cell law entry by entry.  So the entry (p, q) of what it stores depends on row p of the
  activation block, row q of each weight block, entry q of each bias row and entry (p, q) of the previous cell
  state's block.
-/
import proofs.«101927_j77962246357481_2_alg».proof.Proof.Gen.KernelIdeal.Skeleton
import proofs.«101927_j77962246357481_2_alg».proof.Proof.LibMatmulRowsByRows
import proofs.«101927_j77962246357481_2_alg».proof.Proof.CellLaw
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The body's matrix product at entry (p, q): row p of the left block against row q of the right block. -/
theorem product_at (a : FVec Ideal S1024x4096 .bf16) (w : FVec Ideal S128x4096 .bf16) (p : Fin 1024) (q : Fin 128) :
    FloatOps.matmul dot_S1024x4096_S128x4096_S1024x128_1_1_0_0_n_n none a w (constant (F := Ideal) S1024x128 .f32 0x00000000#32) (ix2 p q)
      = ∑ k : Fin 4096, a (ix2 p k) * w (ix2 q k) :=
  Cert.Lib.MatmulRowsByRows.matmul_zero_at dot_S1024x4096_S128x4096_S1024x128_1_1_0_0_n_n rfl rfl
    (fun j s => by
      unfold DotDims.lhsIdx
      rw [dif_neg (show ¬(0 : Fin S1024x4096.rank) ∈ dot_S1024x4096_S128x4096_S1024x128_1_1_0_0_n_n.lhsBatch by decide),
        dif_pos (show (0 : Fin S1024x4096.rank) ∈ dot_S1024x4096_S128x4096_S1024x128_1_1_0_0_n_n.lhsNonContracting by decide)]
      rfl)
    (fun j s => dot_S1024x4096_S128x4096_S1024x128_1_1_0_0_n_n.lhsIdx_val_of_single rfl j s)
    (fun j s => by
      unfold DotDims.rhsIdx
      rw [dif_neg (show ¬(0 : Fin S128x4096.rank) ∈ dot_S1024x4096_S128x4096_S1024x128_1_1_0_0_n_n.rhsBatch by decide),
        dif_pos (show (0 : Fin S128x4096.rank) ∈ dot_S1024x4096_S128x4096_S1024x128_1_1_0_0_n_n.rhsNonContracting by decide)]
      rfl)
    (fun j s => dot_S1024x4096_S128x4096_S1024x128_1_1_0_0_n_n.rhsIdx_val_of_single rfl j s)
    none a w p q

/-- A bias row broadcast over the block's rows, at entry (p, q), is the row's entry q. -/
theorem bias_at (b : FVec Ideal S1x128 .f32) (p : Fin 1024) (q : Fin 128) :
    broadcastTo S1024x128 b broadcasts_S1x128_S1024x128 (ix2 p q) = b (ix2 (0 : Fin 1) q) :=
  broadcastTo_1b_ab_apply b broadcasts_S1x128_S1024x128 p q

/-- The new cell state the body computes, at entry (p, q) of the block. -/
theorem cell_at (v0 : Vec Ideal S1024x4096 .bf16) (v2 : Vec Ideal S128x4096 .bf16) (v5 : Vec Ideal S1x128 .f32)
    (v16 : Vec Ideal S128x4096 .bf16) (v19 : Vec Ideal S1x128 .f32) (v28 : Vec Ideal S1024x128 .f32)
    (p : Fin 1024) (q : Fin 128) :
    k0_pay2 (F := Ideal) v0 v2 v5 v16 v19 v28 (ix2 p q)
      = Cert.Lstm.cellNew ((∑ k : Fin 4096, v0 (ix2 p k) * v2 (ix2 q k)) + v5 (ix2 (0 : Fin 1) q))
          ((∑ k : Fin 4096, v0 (ix2 p k) * v16 (ix2 q k)) + v19 (ix2 (0 : Fin 1) q)) (v28 (ix2 p q)) := by
  unfold k0_pay2 k0_pay1
  simp only [shapeCast_self]
  have e1 := product_at v0 v2 p q
  have e2 := product_at v0 v16 p q
  have b1 := bias_at v5 p q
  have b2 := bias_at v19 p q
  unfold Cert.Lstm.cellNew Cert.Lstm.one
  rw [← e1, ← e2, ← b1, ← b2]
  rfl

/-- The new hidden state the body computes, at entry (p, q) of the block, over the new cell state there. -/
theorem hidden_at (v0 : Vec Ideal S1024x4096 .bf16) (v2 : Vec Ideal S128x4096 .bf16) (v5 : Vec Ideal S1x128 .f32)
    (v9 : Vec Ideal S128x4096 .bf16) (v12 : Vec Ideal S1x128 .f32)
    (v16 : Vec Ideal S128x4096 .bf16) (v19 : Vec Ideal S1x128 .f32) (v28 : Vec Ideal S1024x128 .f32)
    (p : Fin 1024) (q : Fin 128) :
    k0_pay3 (F := Ideal) v0 v2 v5 v9 v12 v16 v19 v28 (ix2 p q)
      = Cert.Lstm.hidden ((∑ k : Fin 4096, v0 (ix2 p k) * v9 (ix2 q k)) + v12 (ix2 (0 : Fin 1) q))
          (k0_pay2 (F := Ideal) v0 v2 v5 v16 v19 v28 (ix2 p q)) := by
  unfold k0_pay3 k0_pay1
  simp only [shapeCast_self]
  have e1 := product_at v0 v9 p q
  have b1 := bias_at v12 p q
  unfold Cert.Lstm.hidden
  rw [← e1, ← b1]
  rfl

/-- The stored cell state at entry (p, q) of a block is the cell law's array at (r, cc), once row p of the activation
    block is row r of the joined activations, row q of each weight block is row cc of that weight matrix, entry q of
    each bias row is the bias's entry cc, and entry (p, q) of the previous-state block is the previous state at (r, cc). -/
theorem cell_entry (x0 : Vec Ideal S1024x4096 .bf16) (x1 x3 : Vec Ideal S128x4096 .bf16) (x4 x6 : Vec Ideal S1x128 .f32)
    (x7 : Vec Ideal S1024x128 .f32)
    (xh : S8192x4096.Idx → EReal) (wf wc : S2048x4096.Idx → EReal) (bf bc : S2048.Idx → EReal) (cp : S8192x2048.Idx → EReal)
    (p : Fin 1024) (q : Fin 128) (r : Fin 8192) (cc : Fin 2048)
    (h0 : ∀ k : Fin 4096, x0 (ix2 p k) = xh (ix2 r k))
    (h1 : ∀ k : Fin 4096, x1 (ix2 q k) = wf (ix2 cc k)) (h3 : ∀ k : Fin 4096, x3 (ix2 q k) = wc (ix2 cc k))
    (h4 : x4 (ix2 (0 : Fin 1) q) = bf (ix1 cc)) (h6 : x6 (ix2 (0 : Fin 1) q) = bc (ix1 cc))
    (h7 : x7 (ix2 p q) = cp (ix2 r cc)) :
    k0_pay2 (F := Ideal) x0 x1 x4 x3 x6 x7 (ix2 p q) = Cert.Lstm.cellArr xh wf wc bf bc cp (ix2 r cc) := by
  rw [cell_at]
  show _ = Cert.Lstm.cellNew (Cert.Lstm.gate xh wf bf r cc) (Cert.Lstm.gate xh wc bc r cc) (cp (ix2 r cc))
  unfold Cert.Lstm.gate
  simp only [h0, h1, h3, h4, h6, h7]

/-- The stored hidden state at entry (p, q) of a block is the cell law's array at (r, cc), under the same readings of
    the blocks. -/
theorem hidden_entry (x0 : Vec Ideal S1024x4096 .bf16) (x1 x2 x3 : Vec Ideal S128x4096 .bf16) (x4 x5 x6 : Vec Ideal S1x128 .f32)
    (x7 : Vec Ideal S1024x128 .f32)
    (xh : S8192x4096.Idx → EReal) (wf wo wc : S2048x4096.Idx → EReal) (bf bo bc : S2048.Idx → EReal) (cp : S8192x2048.Idx → EReal)
    (p : Fin 1024) (q : Fin 128) (r : Fin 8192) (cc : Fin 2048)
    (h0 : ∀ k : Fin 4096, x0 (ix2 p k) = xh (ix2 r k))
    (h1 : ∀ k : Fin 4096, x1 (ix2 q k) = wf (ix2 cc k)) (h2 : ∀ k : Fin 4096, x2 (ix2 q k) = wo (ix2 cc k))
    (h3 : ∀ k : Fin 4096, x3 (ix2 q k) = wc (ix2 cc k))
    (h4 : x4 (ix2 (0 : Fin 1) q) = bf (ix1 cc)) (h5 : x5 (ix2 (0 : Fin 1) q) = bo (ix1 cc)) (h6 : x6 (ix2 (0 : Fin 1) q) = bc (ix1 cc))
    (h7 : x7 (ix2 p q) = cp (ix2 r cc)) :
    k0_pay3 (F := Ideal) x0 x1 x4 x2 x5 x3 x6 x7 (ix2 p q) = Cert.Lstm.hiddenArr xh wf wo wc bf bo bc cp (ix2 r cc) := by
  rw [hidden_at, cell_entry x0 x1 x3 x4 x6 x7 xh wf wc bf bc cp p q r cc h0 h1 h3 h4 h6 h7]
  show _ = Cert.Lstm.hidden (Cert.Lstm.gate xh wo bo r cc) (Cert.Lstm.cellArr xh wf wc bf bc cp (ix2 r cc))
  unfold Cert.Lstm.gate
  simp only [h0, h2, h5]

end Cert.KernelIdeal.Body

end
-- ==== Proof.RegionArrays.lean ====
/-
  The arrays the kernel's region finds, as functions of the program's arguments.

  Before the launch the host narrows x, h and the three weight matrices to bf16 (the identity on the extended
  reals), joins x and h along the columns, and reshapes each bias of length 2048 into one row [1, 2048].  So the
  region finds: the joined activations as the concatenation of x and h, each weight matrix as it was launched,
  and each bias as a one-row matrix whose entry (0, c) is the bias's entry c.
-/
import proofs.«101927_j77962246357481_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The joined activations the region finds: x and h side by side. -/
theorem joined (c : Dev nD) :
    (V m c main_v2 : S8192x4096.Idx → EReal)
      = concatenate S8192x4096 1 [⟨S8192x2048, (m ((c : Thread nD τ).loc main_arg0) : S8192x2048.Idx → EReal)⟩,
          ⟨S8192x2048, (m ((c : Thread nD τ).loc main_arg1) : S8192x2048.Idx → EReal)⟩]
          concatenates_S8192x2048_S8192x2048_S8192x4096_d1 := by
  dsimp only [Gen.V, Gen.hostOps0]
  after_results
  rfl

/-- The forget-gate weights the region finds are the argument's. -/
theorem weights_f (c : Dev nD) :
    (V m c main_v3 : S2048x4096.Idx → EReal) = (m ((c : Thread nD τ).loc main_arg3) : S2048x4096.Idx → EReal) := by
  dsimp only [Gen.V, Gen.hostOps0]
  after_results
  rfl

/-- The output-gate weights the region finds are the argument's. -/
theorem weights_o (c : Dev nD) :
    (V m c main_v4 : S2048x4096.Idx → EReal) = (m ((c : Thread nD τ).loc main_arg5) : S2048x4096.Idx → EReal) := by
  dsimp only [Gen.V, Gen.hostOps0]
  after_results
  rfl

/-- The candidate weights the region finds are the argument's. -/
theorem weights_c (c : Dev nD) :
    (V m c main_v5 : S2048x4096.Idx → EReal) = (m ((c : Thread nD τ).loc main_arg7) : S2048x4096.Idx → EReal) := by
  dsimp only [Gen.V, Gen.hostOps0]
  after_results
  rfl

/-- The forget-gate bias row the region finds, at (0, j), is the argument's entry j. -/
theorem bias_f (c : Dev nD) (u : Fin 1) (j : Fin 2048) :
    (V m c main_v6 : S1x2048.Idx → EReal) (ix2 u j) = (m ((c : Thread nD τ).loc main_arg4) : S2048.Idx → EReal) (ix1 j) := by
  have e : (V m c main_v6 : S1x2048.Idx → EReal)
      = shapeCast S1x2048 (m ((c : Thread nD τ).loc main_arg4) : S2048.Idx → EReal) shapeCasts_S2048_S1x2048 := by
    dsimp only [Gen.V, Gen.hostOps0]
    after_results
    rfl
  rw [e]
  exact shapeCast_a_1a_apply _ shapeCasts_S2048_S1x2048 u j

/-- The output-gate bias row the region finds, at (0, j), is the argument's entry j. -/
theorem bias_o (c : Dev nD) (u : Fin 1) (j : Fin 2048) :
    (V m c main_v7 : S1x2048.Idx → EReal) (ix2 u j) = (m ((c : Thread nD τ).loc main_arg6) : S2048.Idx → EReal) (ix1 j) := by
  have e : (V m c main_v7 : S1x2048.Idx → EReal)
      = shapeCast S1x2048 (m ((c : Thread nD τ).loc main_arg6) : S2048.Idx → EReal) shapeCasts_S2048_S1x2048 := by
    dsimp only [Gen.V, Gen.hostOps0]
    after_results
    rfl
  rw [e]
  exact shapeCast_a_1a_apply _ shapeCasts_S2048_S1x2048 u j

/-- The candidate bias row the region finds, at (0, j), is the argument's entry j. -/
theorem bias_c (c : Dev nD) (u : Fin 1) (j : Fin 2048) :
    (V m c main_v8 : S1x2048.Idx → EReal) (ix2 u j) = (m ((c : Thread nD τ).loc main_arg8) : S2048.Idx → EReal) (ix1 j) := by
  have e : (V m c main_v8 : S1x2048.Idx → EReal)
      = shapeCast S1x2048 (m ((c : Thread nD τ).loc main_arg8) : S2048.Idx → EReal) shapeCasts_S2048_S1x2048 := by
    dsimp only [Gen.V, Gen.hostOps0]
    after_results
    rfl
  rw [e]
  exact shapeCast_a_1a_apply _ shapeCasts_S2048_S1x2048 u j

end Cert.KernelIdeal.Region

end
-- ==== Proof.WholeArrays.lean ====
/-
  From blocks to arrays: what the two result arrays hold after the kernel's run.

  The grid has 8 x 16 points; point (i, j) works on rows 1024 i .. 1024 i + 1023 and columns 128 j .. 128 j + 127.
  The activation block at the point is rows 1024 i .. of the joined activations (all 4096 columns), each weight
  block is rows 128 j .. of its weight matrix (the rows are the gate's output columns), each bias block is entries
  128 j .. of its bias, and the previous-state and the two result blocks sit at block (i, j).  So what a point
  writes back is its block of the cell law's arrays, and the 128 blocks tile the [8192, 2048] results.
-/
import proofs.«101927_j77962246357481_2_alg».proof.Proof.Gen.KernelIdeal.Value
import proofs.«101927_j77962246357481_2_alg».proof.Proof.BodyAtEntry
import proofs.«101927_j77962246357481_2_alg».proof.Proof.RegionArrays
import proofs.«101927_j77962246357481_2_alg».proof.Proof.CellLaw
import Idealize.ShloMosaic.Lib.Pipeline.Value
import Idealize.ShloMosaic.Lib.Tactic

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the activation block follows the result block's row index, the weight and bias
    blocks its column index, the previous-state block and the second result block sit where it sits. -/
theorem idx_facts : ∀ t : Fin cfg0.N,
    win0_0.index t (0 : Fin 2) = win0_8.index t (0 : Fin 2) ∧ win0_0.index t (1 : Fin 2) = 0
    ∧ win0_1.index t (0 : Fin 2) = win0_8.index t (1 : Fin 2) ∧ win0_1.index t (1 : Fin 2) = 0
    ∧ win0_2.index t (0 : Fin 2) = win0_8.index t (1 : Fin 2) ∧ win0_2.index t (1 : Fin 2) = 0
    ∧ win0_3.index t (0 : Fin 2) = win0_8.index t (1 : Fin 2) ∧ win0_3.index t (1 : Fin 2) = 0
    ∧ win0_4.index t (0 : Fin 2) = 0 ∧ win0_4.index t (1 : Fin 2) = win0_8.index t (1 : Fin 2)
    ∧ win0_5.index t (0 : Fin 2) = 0 ∧ win0_5.index t (1 : Fin 2) = win0_8.index t (1 : Fin 2)
    ∧ win0_6.index t (0 : Fin 2) = 0 ∧ win0_6.index t (1 : Fin 2) = win0_8.index t (1 : Fin 2)
    ∧ win0_7.index t (0 : Fin 2) = win0_8.index t (0 : Fin 2) ∧ win0_7.index t (1 : Fin 2) = win0_8.index t (1 : Fin 2)
    ∧ win0_9.index t (0 : Fin 2) = win0_8.index t (0 : Fin 2) ∧ win0_9.index t (1 : Fin 2) = win0_8.index t (1 : Fin 2)
    ∧ win0_8.index t (0 : Fin 2) ≤ 7 ∧ win0_8.index t (1 : Fin 2) ≤ 15 :=
  (by decide +kernel : ∀ t : Fin grid0.N, _)

/-- Every block of the 8 x 16 tiling is some point's. -/
theorem idx_onto : ∀ (q0 : Fin 8) (q1 : Fin 16), ∃ t : Fin cfg0.N,
    win0_8.index t (0 : Fin 2) = q0.val ∧ win0_8.index t (1 : Fin 2) = q1.val :=
  (by decide +kernel : ∀ (q0 : Fin 8) (q1 : Fin 16), ∃ t : Fin grid0.N,
    win0_8.index t (0 : Fin 2) = q0.val ∧ win0_8.index t (1 : Fin 2) = q1.val)

/-- The blocks at point t, read at the entries the body's entry (p, q) depends on, are the region's arrays at row r
    and column cc of the whole results, r = 1024 i + p and cc = 128 j + q. -/
theorem blocks_read (c : Dev nD) (t : Fin cfg0.N) (p : Fin 1024) (q : Fin 128) (r : Fin 8192) (cc : Fin 2048)
    (hr : r.val = win0_8.index t (0 : Fin 2) * 1024 + p.val) (hc : cc.val = win0_8.index t (1 : Fin 2) * 128 + q.val) :
    (∀ k : Fin 4096, (iblk m c 0 t : Vec Ideal S1024x4096 .bf16) (ix2 p k) = (V m c main_v2 : S8192x4096.Idx → EReal) (ix2 r k))
    ∧ (∀ k : Fin 4096, (iblk m c 1 t : Vec Ideal S128x4096 .bf16) (ix2 q k) = (m ((c : Thread nD τ).loc main_arg3) : S2048x4096.Idx → EReal) (ix2 cc k))
    ∧ (∀ k : Fin 4096, (iblk m c 2 t : Vec Ideal S128x4096 .bf16) (ix2 q k) = (m ((c : Thread nD τ).loc main_arg5) : S2048x4096.Idx → EReal) (ix2 cc k))
    ∧ (∀ k : Fin 4096, (iblk m c 3 t : Vec Ideal S128x4096 .bf16) (ix2 q k) = (m ((c : Thread nD τ).loc main_arg7) : S2048x4096.Idx → EReal) (ix2 cc k))
    ∧ (iblk m c 4 t : Vec Ideal S1x128 .f32) (ix2 (0 : Fin 1) q) = (m ((c : Thread nD τ).loc main_arg4) : S2048.Idx → EReal) (ix1 cc)
    ∧ (iblk m c 5 t : Vec Ideal S1x128 .f32) (ix2 (0 : Fin 1) q) = (m ((c : Thread nD τ).loc main_arg6) : S2048.Idx → EReal) (ix1 cc)
    ∧ (iblk m c 6 t : Vec Ideal S1x128 .f32) (ix2 (0 : Fin 1) q) = (m ((c : Thread nD τ).loc main_arg8) : S2048.Idx → EReal) (ix1 cc)
    ∧ (iblk m c 7 t : Vec Ideal S1024x128 .f32) (ix2 p q) = (m ((c : Thread nD τ).loc main_arg2) : S8192x2048.Idx → EReal) (ix2 r cc) := by
  obtain ⟨a00, a01, a10, a11, a20, a21, a30, a31, a40, a41, a50, a51, a60, a61, a70, a71, -, -, -, -⟩ := idx_facts t
  refine ⟨fun k => ?_, fun k => ?_, fun k => ?_, fun k => ?_, ?_, ?_, ?_, ?_⟩
  · unfold iblk
    rw [View.read_apply]
    show (V m c main_v2 : S8192x4096.Idx → EReal) _ = _
    congr 1
    funext a
    apply Fin.ext
    match a with
    | ⟨0, _⟩ => show win0_0.index t (0 : Fin 2) * 1024 + 1 * p.val = r.val; omega
    | ⟨1, _⟩ => show win0_0.index t (1 : Fin 2) * 4096 + 1 * k.val = k.val; omega
  · unfold iblk
    rw [View.read_apply]
    show (V m c main_v3 : S2048x4096.Idx → EReal) _ = _
    rw [Region.weights_f m c]
    congr 1
    funext a
    apply Fin.ext
    match a with
    | ⟨0, _⟩ => show win0_1.index t (0 : Fin 2) * 128 + 1 * q.val = cc.val; omega
    | ⟨1, _⟩ => show win0_1.index t (1 : Fin 2) * 4096 + 1 * k.val = k.val; omega
  · unfold iblk
    rw [View.read_apply]
    show (V m c main_v4 : S2048x4096.Idx → EReal) _ = _
    rw [Region.weights_o m c]
    congr 1
    funext a
    apply Fin.ext
    match a with
    | ⟨0, _⟩ => show win0_2.index t (0 : Fin 2) * 128 + 1 * q.val = cc.val; omega
    | ⟨1, _⟩ => show win0_2.index t (1 : Fin 2) * 4096 + 1 * k.val = k.val; omega
  · unfold iblk
    rw [View.read_apply]
    show (V m c main_v5 : S2048x4096.Idx → EReal) _ = _
    rw [Region.weights_c m c]
    congr 1
    funext a
    apply Fin.ext
    match a with
    | ⟨0, _⟩ => show win0_3.index t (0 : Fin 2) * 128 + 1 * q.val = cc.val; omega
    | ⟨1, _⟩ => show win0_3.index t (1 : Fin 2) * 4096 + 1 * k.val = k.val; omega
  · unfold iblk
    rw [View.read_apply]
    show (V m c main_v6 : S1x2048.Idx → EReal) _ = _
    refine Eq.trans (congrArg (V m c main_v6 : S1x2048.Idx → EReal) ?_) (Region.bias_f m c 0 cc)
    funext a
    apply Fin.ext
    match a with
    | ⟨0, _⟩ => show win0_4.index t (0 : Fin 2) * 1 + 1 * 0 = 0; omega
    | ⟨1, _⟩ => show win0_4.index t (1 : Fin 2) * 128 + 1 * q.val = cc.val; omega
  · unfold iblk
    rw [View.read_apply]
    show (V m c main_v7 : S1x2048.Idx → EReal) _ = _
    refine Eq.trans (congrArg (V m c main_v7 : S1x2048.Idx → EReal) ?_) (Region.bias_o m c 0 cc)
    funext a
    apply Fin.ext
    match a with
    | ⟨0, _⟩ => show win0_5.index t (0 : Fin 2) * 1 + 1 * 0 = 0; omega
    | ⟨1, _⟩ => show win0_5.index t (1 : Fin 2) * 128 + 1 * q.val = cc.val; omega
  · unfold iblk
    rw [View.read_apply]
    show (V m c main_v8 : S1x2048.Idx → EReal) _ = _
    refine Eq.trans (congrArg (V m c main_v8 : S1x2048.Idx → EReal) ?_) (Region.bias_c m c 0 cc)
    funext a
    apply Fin.ext
    match a with
    | ⟨0, _⟩ => show win0_6.index t (0 : Fin 2) * 1 + 1 * 0 = 0; omega
    | ⟨1, _⟩ => show win0_6.index t (1 : Fin 2) * 128 + 1 * q.val = cc.val; omega
  · unfold iblk
    rw [View.read_apply]
    show (V m c main_arg2 : S8192x2048.Idx → EReal) _ = _
    rw [V_main_arg2 m c]
    congr 1
    funext a
    apply Fin.ext
    match a with
    | ⟨0, _⟩ => show win0_7.index t (0 : Fin 2) * 1024 + 1 * p.val = r.val; omega
    | ⟨1, _⟩ => show win0_7.index t (1 : Fin 2) * 128 + 1 * q.val = cc.val; omega

/-- What point t writes back to the hidden-state result is its block of the cell law's hidden-state array. -/
theorem flushed_hidden (c : Dev nD) (t : Fin cfg0.N) :
    (dats m 0 c).flushed 8 t = ((cfg0.win 8).blk t).view.read (Elt Ideal)
      (Cert.Lstm.hiddenArr (V m c main_v2 : S8192x4096.Idx → EReal)
        (m ((c : Thread nD τ).loc main_arg3)) (m ((c : Thread nD τ).loc main_arg5)) (m ((c : Thread nD τ).loc main_arg7))
        (m ((c : Thread nD τ).loc main_arg4)) (m ((c : Thread nD τ).loc main_arg6)) (m ((c : Thread nD τ).loc main_arg8))
        (m ((c : Thread nD τ).loc main_arg2))) := by
  rw [Cert.KernelIdeal.Value.flushed8]
  unfold out0_8
  rw [View.canon_unit_zero hz]
  simp only [View.ld_unit_zero (S := S1024x4096) hz, View.ld_unit_zero (S := S128x4096) hz,
    View.ld_unit_zero (S := S1x128) hz, View.ld_unit_zero (S := S1024x128) hz]
  funext j
  obtain ⟨p, q, rfl⟩ : ∃ (p : Fin 1024) (q : Fin 128), j = ix2 p q := ⟨j 0, j 1, eq_ix2 j⟩
  have he := eq_ix2 (((cfg0.win 8).blk t).view.emb (ix2 p q) : S8192x2048.Idx)
  obtain ⟨h0, h1, h2, h3, h4, h5, h6, h7⟩ := blocks_read m c t p q
    ((((cfg0.win 8).blk t).view.emb (ix2 p q) : S8192x2048.Idx) 0) ((((cfg0.win 8).blk t).view.emb (ix2 p q) : S8192x2048.Idx) 1)
    (by show win0_8.index t (0 : Fin 2) * 1024 + 1 * p.val = _; omega)
    (by show win0_8.index t (1 : Fin 2) * 128 + 1 * q.val = _; omega)
  refine (Body.hidden_entry (iblk m c 0 t) (iblk m c 1 t) (iblk m c 2 t) (iblk m c 3 t) (iblk m c 4 t) (iblk m c 5 t)
    (iblk m c 6 t) (iblk m c 7 t) _ _ _ _ _ _ _ _ p q _ _ h0 h1 h2 h3 h4 h5 h6 h7).trans ?_
  exact congrArg _ he.symm

/-- What point t writes back to the cell-state result is its block of the cell law's cell-state array. -/
theorem flushed_cell (c : Dev nD) (t : Fin cfg0.N) :
    (dats m 0 c).flushed 9 t = ((cfg0.win 9).blk t).view.read (Elt Ideal)
      (Cert.Lstm.cellArr (V m c main_v2 : S8192x4096.Idx → EReal)
        (m ((c : Thread nD τ).loc main_arg3)) (m ((c : Thread nD τ).loc main_arg7))
        (m ((c : Thread nD τ).loc main_arg4)) (m ((c : Thread nD τ).loc main_arg8))
        (m ((c : Thread nD τ).loc main_arg2))) := by
  rw [Cert.KernelIdeal.Value.flushed9]
  unfold out0_9
  rw [View.canon_unit_zero hz]
  simp only [View.ld_unit_zero (S := S1024x4096) hz, View.ld_unit_zero (S := S128x4096) hz,
    View.ld_unit_zero (S := S1x128) hz, View.ld_unit_zero (S := S1024x128) hz]
  funext j
  obtain ⟨p, q, rfl⟩ : ∃ (p : Fin 1024) (q : Fin 128), j = ix2 p q := ⟨j 0, j 1, eq_ix2 j⟩
  have he := eq_ix2 (((cfg0.win 9).blk t).view.emb (ix2 p q) : S8192x2048.Idx)
  obtain ⟨-, -, -, -, -, -, -, -, -, -, -, -, -, -, -, -, a90, a91, -, -⟩ := idx_facts t
  obtain ⟨h0, h1, h2, h3, h4, h5, h6, h7⟩ := blocks_read m c t p q
    ((((cfg0.win 9).blk t).view.emb (ix2 p q) : S8192x2048.Idx) 0) ((((cfg0.win 9).blk t).view.emb (ix2 p q) : S8192x2048.Idx) 1)
    (by show win0_9.index t (0 : Fin 2) * 1024 + 1 * p.val = _; omega)
    (by show win0_9.index t (1 : Fin 2) * 128 + 1 * q.val = _; omega)
  refine (Body.cell_entry (iblk m c 0 t) (iblk m c 1 t) (iblk m c 3 t) (iblk m c 4 t)
    (iblk m c 6 t) (iblk m c 7 t) _ _ _ _ _ _ p q _ _ h0 h1 h3 h4 h6 h7).trans ?_
  exact congrArg _ he.symm

/-- An entry of the hidden-state result is in point t's block iff each coordinate is in the block's range. -/
theorem mem_blk_hidden (t : Fin cfg0.N) (i : S8192x2048.Idx) :
    i ∈ ((cfg0.win 8).blk t).view.set ↔ ∀ a : Fin 2, win0_8.index t a * S1024x128.size a ≤ (i a).val ∧ (i a).val < win0_8.index t a * S1024x128.size a + S1024x128.size a := by
  show i ∈ ((View.whole main_v9_0).slice (win0_8.rect t)).set ↔ _
  rw [View.set_slice_whole, Rect.mem_set_unit]
  exact Iff.rfl

/-- The same for the cell-state result. -/
theorem mem_blk_cell (t : Fin cfg0.N) (i : S8192x2048.Idx) :
    i ∈ ((cfg0.win 9).blk t).view.set ↔ ∀ a : Fin 2, win0_9.index t a * S1024x128.size a ≤ (i a).val ∧ (i a).val < win0_9.index t a * S1024x128.size a + S1024x128.size a := by
  show i ∈ ((View.whole main_v9_1).slice (win0_9.rect t)).set ↔ _
  rw [View.set_slice_whole, Rect.mem_set_unit]
  exact Iff.rfl

/-- Every entry (r, cc) of a result lies in the block of the point with row index r / 1024 and column index cc / 128. -/
theorem cover_hidden (i : S8192x2048.Idx) : ∃ t : Fin cfg0.N, (cfg0.win 8).flush t = true ∧ i ∈ ((cfg0.win 8).blk t).view.set := by
  have hi0 : (i 0).val < 8192 := (i 0).isLt
  have hi1 : (i 1).val < 2048 := (i 1).isLt
  obtain ⟨t, q0, q1⟩ := idx_onto ⟨(i 0).val / 1024, by omega⟩ ⟨(i 1).val / 128, by omega⟩
  have q0' : win0_8.index t (0 : Fin 2) = (i 0).val / 1024 := q0
  have q1' : win0_8.index t (1 : Fin 2) = (i 1).val / 128 := q1
  refine ⟨t, flush0_8 t, ?_⟩
  rw [mem_blk_hidden]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 128 ≤ (i 1).val ∧ (i 1).val < win0_8.index t (1 : Fin 2) * 128 + 128; omega

theorem cover_cell (i : S8192x2048.Idx) : ∃ t : Fin cfg0.N, (cfg0.win 9).flush t = true ∧ i ∈ ((cfg0.win 9).blk t).view.set := by
  have hi0 : (i 0).val < 8192 := (i 0).isLt
  have hi1 : (i 1).val < 2048 := (i 1).isLt
  obtain ⟨t, q0, q1⟩ := idx_onto ⟨(i 0).val / 1024, by omega⟩ ⟨(i 1).val / 128, by omega⟩
  have q0' : win0_8.index t (0 : Fin 2) = (i 0).val / 1024 := q0
  have q1' : win0_8.index t (1 : Fin 2) = (i 1).val / 128 := q1
  obtain ⟨-, -, -, -, -, -, -, -, -, -, -, -, -, -, -, -, a90, a91, -, -⟩ := idx_facts t
  refine ⟨t, flush0_9 t, ?_⟩
  rw [mem_blk_cell]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 128 ≤ (i 1).val ∧ (i 1).val < win0_9.index t (1 : Fin 2) * 128 + 128; omega

/-- The joined activations, as a function of the arguments x and h. -/
abbrev joinedArgs (c : Dev nD) : S8192x4096.Idx → EReal :=
  concatenate S8192x4096 1 [⟨S8192x2048, (m ((c : Thread nD τ).loc main_arg0) : S8192x2048.Idx → EReal)⟩,
    ⟨S8192x2048, (m ((c : Thread nD τ).loc main_arg1) : S8192x2048.Idx → EReal)⟩]
    concatenates_S8192x2048_S8192x2048_S8192x4096_d1

/-- The hidden-state result after the run. -/
theorem final_hidden (c : Dev nD) : (dats m 0 c).arrAt 8 cfg0.N =
    Cert.Lstm.hiddenArr (joinedArgs m c)
      (m ((c : Thread nD τ).loc main_arg3)) (m ((c : Thread nD τ).loc main_arg5)) (m ((c : Thread nD τ).loc main_arg7))
      (m ((c : Thread nD τ).loc main_arg4)) (m ((c : Thread nD τ).loc main_arg6)) (m ((c : Thread nD τ).loc main_arg8))
      (m ((c : Thread nD τ).loc main_arg2)) := by
  have e : joinedArgs m c = (V m c main_v2 : S8192x4096.Idx → EReal) := (Region.joined m c).symm
  rw [e]
  exact (dats m 0 c).arrAt_eq_of_cover 8 _ (fun t _ => flushed_hidden m c t) cover_hidden

/-- The cell-state result after the run. -/
theorem final_cell (c : Dev nD) : (dats m 0 c).arrAt 9 cfg0.N =
    Cert.Lstm.cellArr (joinedArgs m c)
      (m ((c : Thread nD τ).loc main_arg3)) (m ((c : Thread nD τ).loc main_arg7))
      (m ((c : Thread nD τ).loc main_arg4)) (m ((c : Thread nD τ).loc main_arg8))
      (m ((c : Thread nD τ).loc main_arg2)) := by
  have e : joinedArgs m c = (V m c main_v2 : S8192x4096.Idx → EReal) := (Region.joined m c).symm
  rw [e]
  exact (dats m 0 c).arrAt_eq_of_cover 9 _ (fun t _ => flushed_cell m c t) cover_cell

/-- The kernel's run, read: each result array at the cell law's array of the arguments, the arguments unchanged. -/
theorem run : θ_run defs (onTc (τ := τ) (main (F := Ideal))) ⟨m, fun _ => 0, ρ⟩ fun r => ∀ c : Dev nD,
      r.2.mem ((c : Thread nD τ).loc main_v9_0) = Cert.Lstm.hiddenArr (joinedArgs m c)
        (m ((c : Thread nD τ).loc main_arg3)) (m ((c : Thread nD τ).loc main_arg5)) (m ((c : Thread nD τ).loc main_arg7))
        (m ((c : Thread nD τ).loc main_arg4)) (m ((c : Thread nD τ).loc main_arg6)) (m ((c : Thread nD τ).loc main_arg8))
        (m ((c : Thread nD τ).loc main_arg2))
      ∧ r.2.mem ((c : Thread nD τ).loc main_v9_1) = Cert.Lstm.cellArr (joinedArgs m c)
        (m ((c : Thread nD τ).loc main_arg3)) (m ((c : Thread nD τ).loc main_arg7))
        (m ((c : Thread nD τ).loc main_arg4)) (m ((c : Thread nD τ).loc main_arg8))
        (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final_hidden m c), (h c).2.1.trans (final_cell m c), (h c).2.2⟩)
    (Cert.KernelIdeal.Value.run_blocks m ρ)

end Cert.KernelIdeal.Whole

end
-- ==== Proof.ReferenceAtEntry.lean ====
/-
  The reference's two results are the cell law's arrays.

  The reference stacks the three weight matrices into one [6144, 4096] matrix and the three biases into one
  vector of length 6144, takes ONE product of the joined activations with the stacked matrix transposed, adds
  the stacked bias along the rows, and cuts the [8192, 6144] result into three [8192, 2048] bands.  Column c of
  band number g is column 2048 g + c of the product, which contracts against row 2048 g + c of the stack: row c
  of the g-th weight matrix; likewise for the bias.  So each band is one gate's pre-activation.  The logistic
  function is spelled 1 / (1 + exp (-z)), which is what it is on the extended reals.
-/
import proofs.«101927_j77962246357481_2_alg».proof.Proof.Gen.ReferenceIdeal.Read
import proofs.«101927_j77962246357481_2_alg».proof.Proof.CellLaw
import Idealize.ShloMosaic.Lib.Pipeline.Value
import Idealize.ShloMosaic.Lib.ValueIdx
import Idealize.ShloMosaic.PureOps.Ideal.Laws
import Idealize.ShloMosaic.Lib.IdealHost

noncomputable section

namespace Cert.ReferenceIdeal.Bands

open Cert.ReferenceIdeal Cert.ReferenceIdeal.Gen Cert.ReferenceIdeal.Read Idealize.ShloMosaic Idealize.ShloMosaic.ValueIdx

/-- Row cc of the stacked weights is row cc of the forget-gate matrix. -/
theorem stack_f (x3 x5 x7 : S2048x4096.Idx → EReal) (c' : Fin 6144) (cc : Fin 2048) (k : Fin 4096)
    (hc : c'.val = 0 + cc.val) :
    val_main_v1 (F := Ideal) x3 x5 x7 (ix2 c' k) = x3 (ix2 cc k) := by
  unfold val_main_v1
  refine concatenate_apply_piece (0 : Fin S6144x4096.rank)
    [⟨S2048x4096, x3⟩, ⟨S2048x4096, x5⟩, ⟨S2048x4096, x7⟩] concatenates_S2048x4096_S2048x4096_S2048x4096_S6144x4096_d0
    (ix2 c' k) 0 (by show (0 : Nat) < 3; omega) S2048x4096 x3 rfl rfl 0 rfl (ix2 cc k) (fun b hb => ?_) ?_
  · match b with
    | ⟨0, _⟩ => exact absurd rfl hb
    | ⟨1, _⟩ => rfl
  · show 0 + cc.val = c'.val
    omega

/-- Row 2048 + cc of the stacked weights is row cc of the output-gate matrix. -/
theorem stack_o (x3 x5 x7 : S2048x4096.Idx → EReal) (c' : Fin 6144) (cc : Fin 2048) (k : Fin 4096)
    (hc : c'.val = 2048 + cc.val) :
    val_main_v1 (F := Ideal) x3 x5 x7 (ix2 c' k) = x5 (ix2 cc k) := by
  unfold val_main_v1
  refine concatenate_apply_piece (0 : Fin S6144x4096.rank)
    [⟨S2048x4096, x3⟩, ⟨S2048x4096, x5⟩, ⟨S2048x4096, x7⟩] concatenates_S2048x4096_S2048x4096_S2048x4096_S6144x4096_d0
    (ix2 c' k) 1 (by show (1 : Nat) < 3; omega) S2048x4096 x5 rfl rfl 2048 rfl (ix2 cc k) (fun b hb => ?_) ?_
  · match b with
    | ⟨0, _⟩ => exact absurd rfl hb
    | ⟨1, _⟩ => rfl
  · show 2048 + cc.val = c'.val
    omega

/-- Row 4096 + cc of the stacked weights is row cc of the candidate matrix. -/
theorem stack_c (x3 x5 x7 : S2048x4096.Idx → EReal) (c' : Fin 6144) (cc : Fin 2048) (k : Fin 4096)
    (hc : c'.val = 4096 + cc.val) :
    val_main_v1 (F := Ideal) x3 x5 x7 (ix2 c' k) = x7 (ix2 cc k) := by
  unfold val_main_v1
  refine concatenate_apply_piece (0 : Fin S6144x4096.rank)
    [⟨S2048x4096, x3⟩, ⟨S2048x4096, x5⟩, ⟨S2048x4096, x7⟩] concatenates_S2048x4096_S2048x4096_S2048x4096_S6144x4096_d0
    (ix2 c' k) 2 (by show (2 : Nat) < 3; omega) S2048x4096 x7 rfl rfl 4096 rfl (ix2 cc k) (fun b hb => ?_) ?_
  · match b with
    | ⟨0, _⟩ => exact absurd rfl hb
    | ⟨1, _⟩ => rfl
  · show 4096 + cc.val = c'.val
    omega

/-- Entry cc of the stacked bias is the forget-gate bias's entry cc. -/
theorem bias_f (x4 x6 x8 : S2048.Idx → EReal) (c' : Fin 6144) (cc : Fin 2048)
    (hc : c'.val = 0 + cc.val) :
    val_main_v2 (F := Ideal) x4 x6 x8 (ix1 c') = x4 (ix1 cc) := by
  unfold val_main_v2
  refine concatenate_apply_piece (0 : Fin S6144.rank)
    [⟨S2048, x4⟩, ⟨S2048, x6⟩, ⟨S2048, x8⟩] concatenates_S2048_S2048_S2048_S6144_d0
    (ix1 c') 0 (by show (0 : Nat) < 3; omega) S2048 x4 rfl rfl 0 rfl (ix1 cc) (fun b hb => ?_) ?_
  · match b with
    | ⟨0, _⟩ => exact absurd rfl hb
  · show 0 + cc.val = c'.val
    omega

/-- Entry 2048 + cc of the stacked bias is the output-gate bias's entry cc. -/
theorem bias_o (x4 x6 x8 : S2048.Idx → EReal) (c' : Fin 6144) (cc : Fin 2048)
    (hc : c'.val = 2048 + cc.val) :
    val_main_v2 (F := Ideal) x4 x6 x8 (ix1 c') = x6 (ix1 cc) := by
  unfold val_main_v2
  refine concatenate_apply_piece (0 : Fin S6144.rank)
    [⟨S2048, x4⟩, ⟨S2048, x6⟩, ⟨S2048, x8⟩] concatenates_S2048_S2048_S2048_S6144_d0
    (ix1 c') 1 (by show (1 : Nat) < 3; omega) S2048 x6 rfl rfl 2048 rfl (ix1 cc) (fun b hb => ?_) ?_
  · match b with
    | ⟨0, _⟩ => exact absurd rfl hb
  · show 2048 + cc.val = c'.val
    omega

/-- Entry 4096 + cc of the stacked bias is the candidate bias's entry cc. -/
theorem bias_c (x4 x6 x8 : S2048.Idx → EReal) (c' : Fin 6144) (cc : Fin 2048)
    (hc : c'.val = 4096 + cc.val) :
    val_main_v2 (F := Ideal) x4 x6 x8 (ix1 c') = x8 (ix1 cc) := by
  unfold val_main_v2
  refine concatenate_apply_piece (0 : Fin S6144.rank)
    [⟨S2048, x4⟩, ⟨S2048, x6⟩, ⟨S2048, x8⟩] concatenates_S2048_S2048_S2048_S6144_d0
    (ix1 c') 2 (by show (2 : Nat) < 3; omega) S2048 x8 rfl rfl 4096 rfl (ix1 cc) (fun b hb => ?_) ?_
  · match b with
    | ⟨0, _⟩ => exact absurd rfl hb
  · show 4096 + cc.val = c'.val
    omega

/-- The stacked pre-activation at (r, c'), when row c' of the stack is row cc of the weight matrix w and entry c' of
    the stacked bias is entry cc of the bias b: that gate's pre-activation at (r, cc). -/
theorem pre_at (x0 x1 : S8192x2048.Idx → EReal) (x3 : S2048x4096.Idx → EReal) (x4 : S2048.Idx → EReal)
    (x5 : S2048x4096.Idx → EReal) (x6 : S2048.Idx → EReal) (x7 : S2048x4096.Idx → EReal) (x8 : S2048.Idx → EReal)
    (w : S2048x4096.Idx → EReal) (b : S2048.Idx → EReal) (r : Fin 8192) (c' : Fin 6144) (cc : Fin 2048)
    (hw : ∀ k : Fin 4096, val_main_v1 (F := Ideal) x3 x5 x7 (ix2 c' k) = w (ix2 cc k))
    (hb : val_main_v2 (F := Ideal) x4 x6 x8 (ix1 c') = b (ix1 cc)) :
    val_main_v7 (F := Ideal) x0 x1 x3 x4 x5 x6 x7 x8 (ix2 r c')
      = Cert.Lstm.gate (val_main_v0 (F := Ideal) x0 x1) w b r cc := by
  have el : ∀ k : Fin 4096, lidx_main_v4 (ix2 r c') k = ix2 r k := fun k =>
    funext fun a => Fin.ext (by match a with | ⟨0, _⟩ => rfl | ⟨1, _⟩ => rfl)
  have er : ∀ k : Fin 4096, idx_main_v3 (ridx_main_v4 (ix2 r c') k) = ix2 c' k := fun k =>
    funext fun a => Fin.ext (by match a with | ⟨0, _⟩ => rfl | ⟨1, _⟩ => rfl)
  have eb : idx_main_v5 (idx_main_v6 (ix2 r c')) = ix1 c' :=
    funext fun a => Fin.ext (by match a with | ⟨0, _⟩ => rfl)
  rw [val_main_v7_apply, val_main_v4_apply, val_main_v6_apply, val_main_v5_apply, eb, hb]
  unfold Cert.Lstm.gate
  simp only [val_main_v3_apply, el, er, hw, Ideal.addf_def]

/-- The reference's new cell state is the cell law's array of the joined activations, the forget and candidate
    weights and biases, and the previous cell state. -/
theorem cell_eq (x0 x1 x2 : S8192x2048.Idx → EReal) (x3 : S2048x4096.Idx → EReal) (x4 : S2048.Idx → EReal)
    (x5 : S2048x4096.Idx → EReal) (x6 : S2048.Idx → EReal) (x7 : S2048x4096.Idx → EReal) (x8 : S2048.Idx → EReal) :
    val_main_v28 (F := Ideal) x0 x1 x2 x3 x4 x5 x6 x7 x8
      = Cert.Lstm.cellArr (val_main_v0 (F := Ideal) x0 x1) x3 x7 x4 x8 x2 := by
  funext i
  obtain ⟨r, cc, rfl⟩ : ∃ (r : Fin 8192) (cc : Fin 2048), i = ix2 r cc := ⟨i 0, i 1, eq_ix2 i⟩
  have hcc : cc.val < 2048 := cc.isLt
  have hf := pre_at x0 x1 x3 x4 x5 x6 x7 x8 x3 x4 r ⟨cc.val, by omega⟩ cc
    (fun k => stack_f x3 x5 x7 _ cc k (by show cc.val = 0 + cc.val; omega)) (bias_f x4 x6 x8 _ cc (by show cc.val = 0 + cc.val; omega))
  have hg := pre_at x0 x1 x3 x4 x5 x6 x7 x8 x7 x8 r ⟨4096 + cc.val, by omega⟩ cc
    (fun k => stack_c x3 x5 x7 _ cc k rfl) (bias_c x4 x6 x8 _ cc rfl)
  have i8 : idx_main_v8 (ix2 r cc) = ix2 r (⟨cc.val, by omega⟩ : Fin 6144) :=
    funext fun a => Fin.ext (by match a with | ⟨0, _⟩ => rfl | ⟨1, _⟩ => rfl)
  have i10 : idx_main_v10 (ix2 r cc) = ix2 r (⟨4096 + cc.val, by omega⟩ : Fin 6144) :=
    funext fun a => Fin.ext (by match a with | ⟨0, _⟩ => rfl | ⟨1, _⟩ => rfl)
  simp only [val_main_v28_apply, val_main_v26_apply, val_main_v27_apply, val_main_v18_apply, val_main_v25_apply,
    val_main_v16_apply, val_main_v17_apply, val_main_v15_apply, val_main_v14_apply, val_main_v13_apply,
    val_main_v12_apply, val_main_v11_apply, val_main_v10_apply, val_main_v8_apply,
    val_main_cst_apply, val_main_cst_0_apply, val_main_cst_1_apply, i8, i10, hf, hg]
  show _ = Cert.Lstm.cellNew (Cert.Lstm.gate (val_main_v0 (F := Ideal) x0 x1) x3 x4 r cc)
    (Cert.Lstm.gate (val_main_v0 (F := Ideal) x0 x1) x7 x8 r cc) (x2 (ix2 r cc))
  unfold Cert.Lstm.cellNew Cert.Lstm.one Ideal.logistic
  simp only [Ideal.ofBits_one_f32, Ideal.ofBits_def, Ideal.addf_def, Ideal.subf_def, Ideal.mulf_def, Ideal.hostDivf_def,
    Ideal.hostUnary_exp_def, Ideal.hostUnary_tanh_def, Ideal.hostNegf_def, Ideal.negf_def]

/-- The reference's new hidden state is the cell law's array. -/
theorem hidden_eq (x0 x1 x2 : S8192x2048.Idx → EReal) (x3 : S2048x4096.Idx → EReal) (x4 : S2048.Idx → EReal)
    (x5 : S2048x4096.Idx → EReal) (x6 : S2048.Idx → EReal) (x7 : S2048x4096.Idx → EReal) (x8 : S2048.Idx → EReal) :
    val_main_v30 (F := Ideal) x0 x1 x2 x3 x4 x5 x6 x7 x8
      = Cert.Lstm.hiddenArr (val_main_v0 (F := Ideal) x0 x1) x3 x5 x7 x4 x6 x8 x2 := by
  funext i
  obtain ⟨r, cc, rfl⟩ : ∃ (r : Fin 8192) (cc : Fin 2048), i = ix2 r cc := ⟨i 0, i 1, eq_ix2 i⟩
  have hcc : cc.val < 2048 := cc.isLt
  have ho := pre_at x0 x1 x3 x4 x5 x6 x7 x8 x5 x6 r ⟨2048 + cc.val, by omega⟩ cc
    (fun k => stack_o x3 x5 x7 _ cc k rfl) (bias_o x4 x6 x8 _ cc rfl)
  have i9 : idx_main_v9 (ix2 r cc) = ix2 r (⟨2048 + cc.val, by omega⟩ : Fin 6144) :=
    funext fun a => Fin.ext (by match a with | ⟨0, _⟩ => rfl | ⟨1, _⟩ => rfl)
  rw [val_main_v30_apply, val_main_v29_apply, cell_eq]
  simp only [val_main_v24_apply, val_main_v23_apply, val_main_v22_apply, val_main_v21_apply, val_main_v20_apply,
    val_main_v19_apply, val_main_v9_apply, val_main_cst_2_apply, val_main_cst_3_apply, i9, ho]
  show _ = Cert.Lstm.hidden (Cert.Lstm.gate (val_main_v0 (F := Ideal) x0 x1) x5 x6 r cc)
    (Cert.Lstm.cellArr (val_main_v0 (F := Ideal) x0 x1) x3 x7 x4 x8 x2 (ix2 r cc))
  unfold Cert.Lstm.hidden Ideal.logistic
  simp only [Ideal.ofBits_one_f32, Ideal.ofBits_def, Ideal.addf_def, Ideal.mulf_def, Ideal.hostDivf_def,
    Ideal.hostUnary_exp_def, Ideal.hostUnary_tanh_def, Ideal.hostNegf_def, Ideal.negf_def]

end Cert.ReferenceIdeal.Bands

end
-- ==== Proof.lean ====
/-
  The coupled-gate LSTM cell: a tiled kernel against a stacked-weights reference, equal on the extended reals.

  Both programs compute, for the row-joined activations xh = [x | h] of shape [8192, 4096],
      f = xh W_f^T + b_f,   o = xh W_o^T + b_o,   g = xh W_c^T + b_c,
      c' = sigma(f) * c + (1 - sigma(f)) * tanh(g),      h' = sigma(o) * tanh(c').
  The kernel narrows its operands to bf16 (the identity on the extended reals), keeps the three weight matrices
  apart, and computes the results block by block over an 8 x 16 grid, each point contracting a [1024, 4096] block
  of activations against [128, 4096] blocks of weights.  The reference stacks the three weight matrices and the
  three biases, takes one product and cuts it into three bands, and spells the logistic function as
  1 / (1 + exp (-z)).  Entry by entry the two are the same sums over the same 4096 products in the same order, so
  no law of arithmetic beyond reading the arrays at an index is needed, and the finiteness of the inputs is never
  used.

  The pieces: CellLaw (the common function), BodyAtEntry (what the kernel body stores, at an entry),
  RegionArrays (the arrays the host prepares for the kernel), WholeArrays (from the points' blocks to the whole
  results, and the kernel's run), ReferenceAtEntry (the reference's results are the same function).  The kernel's
  frames are the generated ones; the reference's frame is its generated run with the results dropped; the kernel
  and its idealization differ by no rewrite, so the preservation claim is trivial.
-/
import proofs.«101927_j77962246357481_2_alg».proof.Defs
import proofs.«101927_j77962246357481_2_alg».proof.Proof.Gen.Kernel
import proofs.«101927_j77962246357481_2_alg».proof.Proof.Gen.Kernel.Skeleton
import proofs.«101927_j77962246357481_2_alg».proof.Proof.Gen.Kernel.Launch
import proofs.«101927_j77962246357481_2_alg».proof.Proof.Gen.Kernel.Points
import proofs.«101927_j77962246357481_2_alg».proof.Proof.Gen.Kernel.Frame
import proofs.«101927_j77962246357481_2_alg».proof.Proof.Gen.KernelIdeal
import proofs.«101927_j77962246357481_2_alg».proof.Proof.Gen.KernelIdeal.Skeleton
import proofs.«101927_j77962246357481_2_alg».proof.Proof.Gen.KernelIdeal.Launch
import proofs.«101927_j77962246357481_2_alg».proof.Proof.Gen.KernelIdeal.Points
import proofs.«101927_j77962246357481_2_alg».proof.Proof.Gen.KernelIdeal.Frame
import proofs.«101927_j77962246357481_2_alg».proof.Proof.Gen.ReferenceIdeal
import proofs.«101927_j77962246357481_2_alg».proof.Proof.Gen.Pre_finite_inputs
import proofs.«101927_j77962246357481_2_alg».proof.Proof.Gen.KernelIdeal.Value
import proofs.«101927_j77962246357481_2_alg».proof.Proof.Gen.ReferenceIdeal.Run
import proofs.«101927_j77962246357481_2_alg».proof.Proof.Gen.ReferenceIdeal.Read
import proofs.«101927_j77962246357481_2_alg».proof.Proof.WholeArrays
import proofs.«101927_j77962246357481_2_alg».proof.Proof.ReferenceAtEntry
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the nine arguments both programs end with the hidden state and the cell state at
    the cell law's arrays of those arguments. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8⟩ := hagree c
    rw [Cert.ReferenceIdeal.Read.val_main_v30_eq, Cert.ReferenceIdeal.Bands.hidden_eq, a0, a1, a2, a3, a4, a5, a6, a7, a8]
    rfl
  · obtain ⟨a0, a1, a2, a3, a4, a5, a6, a7, a8⟩ := hagree c
    rw [Cert.ReferenceIdeal.Read.val_main_v28_eq, Cert.ReferenceIdeal.Bands.cell_eq, a0, a1, a2, a3, a4, a7, a8]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
